-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S_ : Shape := ⟨0, ![]⟩

class Facts : Prop where
  bcast_S_S32x16384x2 : S_.BroadcastsInDim S32x16384x2 (![] : Fin 0 → Fin S32x16384x2.rank)
  reducesTo_S32x16384x2_S_d0_1_2 : S32x16384x2.ReducesTo [0, 1, 2] S_
  h_S_ : 0 < S_.numel
  bcast_S_S32x197888 : S_.BroadcastsInDim S32x197888 (![] : Fin 0 → Fin S32x197888.rank)
  reducesTo_S32x197888_S_d0_1 : S32x197888.ReducesTo [0, 1] S_
  bcast_S_S32x1027 : S_.BroadcastsInDim S32x1027 (![] : Fin 0 → Fin S32x1027.rank)
  reducesTo_S32x1027_S_d0_1 : S32x1027.ReducesTo [0, 1] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  main_v18

def fn {F : FTy → Type} [FloatOps F] (main_arg0 : FVec F S32x16384x2 .f32) (main_arg1 : FVec F S32x197888 .f32) (main_arg2 : FVec F S32x1027 .f32) (main_arg3 : FVec F S32x256 .f32) : IVec S_ 1 :=
  let main_v0 : FVec F S32x16384x2 .f32 := Host.absf main_arg0
  let main_cst : FVec F S_ .f32 := constant S_ .f32 0x7F800000#32
  let main_v1 : FVec F S32x16384x2 .f32 := broadcastInDim S32x16384x2 ![] bcast_S_S32x16384x2 main_cst
  let main_v2 : IVec S32x16384x2 1 := cmpf .olt main_v0 main_v1
  let main_c : IVec S_ 1 := constantI S_ 1 1#1
  let main_v3 : IVec S_ 1 := (fun x v => Host.reduce IntOp.andi x v reducesTo_S32x16384x2_S_d0_1_2 h_S_) main_v2 main_c
  let main_v4 : FVec F S32x197888 .f32 := Host.absf main_arg1
  let main_cst_0 : FVec F S_ .f32 := constant S_ .f32 0x7F800000#32
  let main_v5 : FVec F S32x197888 .f32 := broadcastInDim S32x197888 ![] bcast_S_S32x197888 main_cst_0
  let main_v6 : IVec S32x197888 1 := cmpf .olt main_v4 main_v5
  let main_c_1 : IVec S_ 1 := constantI S_ 1 1#1
  let main_v7 : IVec S_ 1 := (fun x v => Host.reduce IntOp.andi x v reducesTo_S32x197888_S_d0_1 h_S_) main_v6 main_c_1
  let main_v8 : IVec S_ 1 := andi main_v3 main_v7
  let main_v9 : FVec F S32x1027 .f32 := Host.absf main_arg2
  let main_cst_2 : FVec F S_ .f32 := constant S_ .f32 0x7F800000#32
  let main_v10 : FVec F S32x1027 .f32 := broadcastInDim S32x1027 ![] bcast_S_S32x1027 main_cst_2
  let main_v11 : IVec S32x1027 1 := cmpf .olt main_v9 main_v10
  let main_c_3 : IVec S_ 1 := constantI S_ 1 1#1
  let main_v12 : IVec S_ 1 := (fun x v => Host.reduce IntOp.andi x v reducesTo_S32x1027_S_d0_1 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_v13 main_v16
-- ==== Kernel.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S32x512 : Shape := ⟨2, ![32, 512]⟩
abbrev S32x256x2 : Shape := ⟨3, ![32, 256, 2]⟩
abbrev S32x1x256 : Shape := ⟨3, ![32, 1, 256]⟩
abbrev S32x65536 : Shape := ⟨2, ![32, 65536]⟩
abbrev S32x256x256 : Shape := ⟨3, ![32, 256, 256]⟩
abbrev S32x768 : Shape := ⟨2, ![32, 768]⟩
abbrev S32x3x256 : Shape := ⟨3, ![32, 3, 256]⟩
abbrev S32x3 : Shape := ⟨2, ![32, 3]⟩
abbrev S32x1x3 : Shape := ⟨3, ![32, 1, 3]⟩
abbrev S32x16384x3 : Shape := ⟨3, ![32, 16384, 3]⟩
abbrev S1x8192x2 : Shape := ⟨3, ![1, 8192, 2]⟩
abbrev S1x256x2 : Shape := ⟨3, ![1, 256, 2]⟩
abbrev S1x1x256 : Shape := ⟨3, ![1, 1, 256]⟩
abbrev S1x256x256 : Shape := ⟨3, ![1, 256, 256]⟩
abbrev S1x3x256 : Shape := ⟨3, ![1, 3, 256]⟩
abbrev S1x1x3 : Shape := ⟨3, ![1, 1, 3]⟩
abbrev S1x8192x3 : Shape := ⟨3, ![1, 8192, 3]⟩
abbrev S8192x2 : Shape := ⟨2, ![8192, 2]⟩
abbrev S256x2 : Shape := ⟨2, ![256, 2]⟩
abbrev S8192x256 : Shape := ⟨2, ![8192, 256]⟩
abbrev S1x256 : Shape := ⟨2, ![1, 256]⟩
abbrev S256x256 : Shape := ⟨2, ![256, 256]⟩
abbrev S3x256 : Shape := ⟨2, ![3, 256]⟩
abbrev S8192x3 : Shape := ⟨2, ![8192, 3]⟩
abbrev S1x3 : Shape := ⟨2, ![1, 3]⟩

abbrev nBuf : Space → Nat
  | .hbm => 31
  | .vmem => 24
  | .smem => 0
  | _ => 0

abbrev bufTy : (tb : Table) → Fin (tcTables nBuf tb) → BufTy
  | .hbm, ⟨0, _⟩ => ⟨S32x16384x2, .f32⟩
  | .hbm, ⟨1, _⟩ => ⟨S32x197888, .f32⟩
  | .hbm, ⟨2, _⟩ => ⟨S32x1027, .f32⟩
  | .hbm, ⟨3, _⟩ => ⟨S32x256, .f32⟩
  | .hbm, ⟨4, _⟩ => ⟨S32x512, .f32⟩
  | .hbm, ⟨5, _⟩ => ⟨S32x256x2, .f32⟩
  | .hbm, ⟨6, _⟩ => ⟨S32x256x2, .bf16⟩
  | .hbm, ⟨7, _⟩ => ⟨S32x256, .f32⟩
  | .hbm, ⟨8, _⟩ => ⟨S32x1x256, .f32⟩
  | .hbm, ⟨9, _⟩ => ⟨S32x65536, .f32⟩
  | .hbm, ⟨10, _⟩ => ⟨S32x256x256, .f32⟩
  | .hbm, ⟨11, _⟩ => ⟨S32x256x256, .bf16⟩
  | .hbm, ⟨12, _⟩ => ⟨S32x256, .f32⟩
  | .hbm, ⟨13, _⟩ => ⟨S32x1x256, .f32⟩
  | .hbm, ⟨14, _⟩ => ⟨S32x65536, .f32⟩
  | .hbm, ⟨15, _⟩ => ⟨S32x256x256, .f32⟩
  | .hbm, ⟨16, _⟩ => ⟨S32x256x256, .bf16⟩
  | .hbm, ⟨17, _⟩ => ⟨S32x256, .f32⟩
  | .hbm, ⟨18, _⟩ => ⟨S32x1x256, .f32⟩
  | .hbm, ⟨19, _⟩ => ⟨S32x65536, .f32⟩
  | .hbm, ⟨20, _⟩ => ⟨S32x256x256, .f32⟩
  | .hbm, ⟨21, _⟩ => ⟨S32x256x256, .bf16⟩
  | .hbm, ⟨22, _⟩ => ⟨S32x256, .f32⟩
  | .hbm, ⟨23, _⟩ => ⟨S32x1x256, .f32⟩
  | .hbm, ⟨24, _⟩ => ⟨S32x768, .f32⟩
  | .hbm, ⟨25, _⟩ => ⟨S32x3x256, .f32⟩
  | .hbm, ⟨26, _⟩ => ⟨S32x3x256, .bf16⟩
  | .hbm, ⟨27, _⟩ => ⟨S32x3, .f32⟩
  | .hbm, ⟨28, _⟩ => ⟨S32x1x3, .f32⟩
  | .hbm, ⟨29, _⟩ => ⟨S32x16384x2, .bf16⟩
  | .hbm, ⟨30, _⟩ => ⟨S32x16384x3, .f32⟩
  | .local _ .vmem, ⟨0, _⟩ => ⟨S1x8192x2, .bf16⟩
  | .local _ .vmem, ⟨1, _⟩ => ⟨S1x8192x2, .bf16⟩
  | .local _ .vmem, ⟨2, _⟩ => ⟨S1x256x2, .bf16⟩
  | .local _ .vmem, ⟨3, _⟩ => ⟨S1x256x2, .bf16⟩
  | .local _ .vmem, ⟨4, _⟩ => ⟨S1x1x256, .f32⟩
  | .local _ .vmem, ⟨5, _⟩ => ⟨S1x1x256, .f32⟩
  | .local _ .vmem, ⟨6, _⟩ => ⟨S1x256x256, .bf16⟩
  | .local _ .vmem, ⟨7, _⟩ => ⟨S1x256x256, .bf16⟩
  | .local _ .vmem, ⟨8, _⟩ => ⟨S1x1x256, .f32⟩
  | .local _ .vmem, ⟨9, _⟩ => ⟨S1x1x256, .f32⟩
  | .local _ .vmem, ⟨10, _⟩ => ⟨S1x256x256, .bf16⟩
  | .local _ .vmem, ⟨11, _⟩ => ⟨S1x256x256, .bf16⟩
  | .local _ .vmem, ⟨12, _⟩ => ⟨S1x1x256, .f32⟩
  | .local _ .vmem, ⟨13, _⟩ => ⟨S1x1x256, .f32⟩
  | .local _ .vmem, ⟨14, _⟩ => ⟨S1x256x256, .bf16⟩
  | .local _ .vmem, ⟨15, _⟩ => ⟨S1x256x256, .bf16⟩
  | .local _ .vmem, ⟨16, _⟩ => ⟨S1x1x256, .f32⟩
  | .local _ .vmem, ⟨17, _⟩ => ⟨S1x1x256, .f32⟩
  | .local _ .vmem, ⟨18, _⟩ => ⟨S1x3x256, .bf16⟩
  | .local _ .vmem, ⟨19, _⟩ => ⟨S1x3x256, .bf16⟩
  | .local _ .vmem, ⟨20, _⟩ => ⟨S1x1x3, .f32⟩
  | .local _ .vmem, ⟨21, _⟩ => ⟨S1x1x3, .f32⟩
  | .local _ .vmem, ⟨22, _⟩ => ⟨S1x8192x3, .f32⟩
  | .local _ .vmem, ⟨23, _⟩ => ⟨S1x8192x3, .f32⟩
  | _, _ => ⟨S32x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x2 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x3x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8192x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  slices_S32x197888_S32x512_0_0 : S32x197888.Slices ![0, 0] S32x512
  shapeCasts_S32x512_S32x256x2 : S32x512.ShapeCasts S32x256x2
  bitsLt_bf16_f32 : FTy.bits .bf16 < FTy.bits .f32
  slices_S32x1027_S32x256_0_0 : S32x1027.Slices ![0, 0] S32x256
  shapeCasts_S32x256_S32x1x256 : S32x256.ShapeCasts S32x1x256
  slices_S32x197888_S32x65536_0_512 : S32x197888.Slices ![0, 512] S32x65536
  shapeCasts_S32x65536_S32x256x256 : S32x65536.ShapeCasts S32x256x256
  slices_S32x1027_S32x256_0_256 : S32x1027.Slices ![0, 256] S32x256
  slices_S32x197888_S32x65536_0_66048 : S32x197888.Slices ![0, 66048] S32x65536
  slices_S32x1027_S32x256_0_512 : S32x1027.Slices ![0, 512] S32x256
  slices_S32x197888_S32x65536_0_131584 : S32x197888.Slices ![0, 131584] S32x65536
  slices_S32x1027_S32x256_0_768 : S32x1027.Slices ![0, 768] S32x256
  slices_S32x197888_S32x768_0_197120 : S32x197888.Slices ![0, 197120] S32x768
  shapeCasts_S32x768_S32x3x256 : S32x768.ShapeCasts S32x3x256
  slices_S32x1027_S32x3_0_1024 : S32x1027.Slices ![0, 1024] S32x3
  shapeCasts_S32x3_S32x1x3 : S32x3.ShapeCasts S32x1x3
  inb_S1x8192x2_S1x8192x2_0_0_0 : ∀ a, (![0, 0, 0] : Fin 3 → Nat) a + S1x8192x2.size a ≤ S1x8192x2.size a
  h_S1x8192x2 : 0 < S1x8192x2.numel
  shapeCasts_S1x8192x2_S8192x2 : S1x8192x2.ShapeCasts S8192x2
  inb_S1x256x2_S1x256x2_0_0_0 : ∀ a, (![0, 0, 0] : Fin 3 → Nat) a + S1x256x2.size a ≤ S1x256x2.size a
  h_S1x256x2 : 0 < S1x256x2.numel
  shapeCasts_S1x256x2_S256x2 : S1x256x2.ShapeCasts S256x2
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S8192x256 : S1x256.Broadcasts S8192x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  broadcasts_S1x3_S8192x3 : S1x3.Broadcasts S8192x3
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  shapeCasts_S8192x3_S1x8192x3 : S8192x3.ShapeCasts S1x8192x3
  dot_S8192x2_S256x2_S8192x256_1_1_0_0_n_n_wf : DotDims.WF S8192x2 S256x2 S8192x256 [1] [1] [0] [0] [] []
  dot_S8192x256_S256x256_S8192x256_1_1_0_0_n_n_wf : DotDims.WF S8192x256 S256x256 S8192x256 [1] [1] [0] [0] [] []
  dot_S8192x256_S3x256_S8192x3_1_1_0_0_n_n_wf : DotDims.WF S8192x256 S3x256 S8192x3 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x2.size a ≤ S32x16384x2.size a
  hwx0_0 : ∀ i : grid0.Coords, EltTy.bits .bf16 = 32 ∨ (Rect.block (s := S32x16384x2) S1x8192x2.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2.size a ≤ S32x256x2.size a
  hwx0_1 : ∀ i : grid0.Coords, EltTy.bits .bf16 = 32 ∨ (Rect.block (s := S32x256x2) S1x256x2.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S32x1x256.size a
  hwx0_2 : ∀ i : grid0.Coords, EltTy.bits .f32 = 32 ∨ (Rect.block (s := S32x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .bf16 = 32 ∨ (Rect.block (s := S32x256x256) S1x256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S32x256x256.size a
  hwx0_5 : ∀ i : grid0.Coords, EltTy.bits .bf16 = 32 ∨ (Rect.block (s := S32x256x256) S1x256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S32x1x256.size a
  hwx0_6 : ∀ i : grid0.Coords, EltTy.bits .f32 = 32 ∨ (Rect.block (s := S32x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S32x256x256.size a
  hwx0_7 : ∀ i : grid0.Coords, EltTy.bits .bf16 = 32 ∨ (Rect.block (s := S32x256x256) S1x256x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x256.size a ≤ S32x1x256.size a
  hwx0_8 : ∀ i : grid0.Coords, EltTy.bits .f32 = 32 ∨ (Rect.block (s := S32x1x256) S1x1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x3x256.size a ≤ S32x3x256.size a
  hwx0_9 : ∀ i : grid0.Coords, EltTy.bits .bf16 = 32 ∨ (Rect.block (s := S32x3x256) S1x3x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x3.size a ≤ S32x1x3.size a
  hwx0_10 : ∀ i : grid0.Coords, EltTy.bits .f32 = 32 ∨ (Rect.block (s := S32x1x3) S1x1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8192x3.size a ≤ S32x16384x3.size a
  hwx0_11 : ∀ i : grid0.Coords, EltTy.bits .f32 = 32 ∨ (Rect.block (s := S32x16384x3) S1x8192x3.size (cc0_transform_11 i) (hinb0_11 i)).WholeWords (EltTy.packing .f32)

variable [Facts₀]

def dot_S8192x2_S256x2_S8192x256_1_1_0_0_n_n : DotDims S8192x2 S256x2 S8192x256 where
  lhsContracting := [1]
  rhsContracting := [1]
  lhsNonContracting := [0]
  rhsNonContracting := [0]
  lhsBatch := []
  rhsBatch := []
  wf := dot_S8192x2_S256x2_S8192x256_1_1_0_0_n_n_wf
def dot_S8192x256_S256x256_S8192x256_1_1_0_0_n_n : DotDims S8192x256 S256x256 S8192x256 where
  lhsContracting := [1]
  rhsContracting := [1]
  lhsNonContracting := [0]
  rhsNonContracting := [0]
  lhsBatch := []
  rhsBatch := []
  wf := dot_S8192x256_S256x256_S8192x256_1_1_0_0_n_n_wf
def dot_S8192x256_S3x256_S8192x3_1_1_0_0_n_n : DotDims S8192x256 S3x256 S8192x3 where
  lhsContracting := [1]
  rhsContracting := [1]
  lhsNonContracting := [0]
  rhsNonContracting := [0]
  lhsBatch := []
  rhsBatch := []
  wf := dot_S8192x256_S3x256_S8192x3_1_1_0_0_n_n_wf

abbrev win0_0 : Pipeline.Window sig grid0 :=
  Pipeline.Window.ofSpec (Memref.whole main_v25) S1x8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19) S1x1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x3x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x1x3.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x8192x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x16384x2 : Shape := ⟨3, ![32, 16384, 2]⟩
abbrev S32x197888 : Shape := ⟨2, ![32, 197888]⟩
abbrev S32x1027 : Shape := ⟨2, ![32, 1027]⟩
abbrev S32x256 : Shape := ⟨2, ![32, 256]⟩
abbrev S32x512 : Shape := ⟨2, ![32, 512]⟩
abbrev S32x256x2 : Shape := ⟨3, ![32, 256, 2]⟩
abbrev S32x2x256 : Shape := ⟨3, ![32, 2, 256]⟩
abbrev S32x16384x256 : Shape := ⟨3, ![32, 16384, 256]⟩
abbrev S32x1x256 : Shape := ⟨3, ![32, 1, 256]⟩
abbrev S_ : Shape := ⟨0, ![]⟩
abbrev S32x65536 : Shape := ⟨2, ![32, 65536]⟩
abbrev S32x256x256 : Shape := ⟨3, ![32, 256, 256]⟩
abbrev S32x768 : Shape := ⟨2, ![32, 768]⟩
abbrev S32x3x256 : Shape := ⟨3, ![32, 3, 256]⟩
abbrev S32x3 : Shape := ⟨2, ![32, 3]⟩
abbrev S32x256x3 : Shape := ⟨3, ![32, 256, 3]⟩
abbrev S32x16384x3 : Shape := ⟨3, ![32, 16384, 3]⟩
abbrev S32x1x3 : Shape := ⟨3, ![32, 1, 3]⟩

abbrev nBuf : Space → Nat
  | .hbm => 60
  | .vmem => 0
  | .smem => 0
  | _ => 0

abbrev bufTy : (tb : Table) → Fin (tcTables nBuf tb) → BufTy
  | .hbm, ⟨0, _⟩ => ⟨S32x16384x2, .f32⟩
  | .hbm, ⟨1, _⟩ => ⟨S32x197888, .f32⟩
  | .hbm, ⟨2, _⟩ => ⟨S32x1027, .f32⟩
  | .hbm, ⟨3, _⟩ => ⟨S32x256, .f32⟩
  | .hbm, ⟨4, _⟩ => ⟨S32x512, .f32⟩
  | .hbm, ⟨5, _⟩ => ⟨S32x256x2, .f32⟩
  | .hbm, ⟨6, _⟩ => ⟨S32x256, .f32⟩
  | .hbm, ⟨7, _⟩ => ⟨S32x2x256, .f32⟩
  | .hbm, ⟨8, _⟩ => ⟨S32x16384x256, .f32⟩
  | .hbm, ⟨9, _⟩ => ⟨S32x1x256, .f32⟩
  | .hbm, ⟨10, _⟩ => ⟨S32x16384x256, .f32⟩
  | .hbm, ⟨11, _⟩ => ⟨S32x16384x256, .f32⟩
  | .hbm, ⟨12, _⟩ => ⟨S_, .f32⟩
  | .hbm, ⟨13, _⟩ => ⟨S32x16384x256, .f32⟩
  | .hbm, ⟨14, _⟩ => ⟨S32x16384x256, .f32⟩
  | .hbm, ⟨15, _⟩ => ⟨S32x16384x256, .f32⟩
  | .hbm, ⟨16, _⟩ => ⟨S32x65536, .f32⟩
  | .hbm, ⟨17, _⟩ => ⟨S32x256x256, .f32⟩
  | .hbm, ⟨18, _⟩ => ⟨S32x256, .f32⟩
  | .hbm, ⟨19, _⟩ => ⟨S32x256x256, .f32⟩
  | .hbm, ⟨20, _⟩ => ⟨S32x16384x256, .f32⟩
  | .hbm, ⟨21, _⟩ => ⟨S32x1x256, .f32⟩
  | .hbm, ⟨22, _⟩ => ⟨S32x16384x256, .f32⟩
  | .hbm, ⟨23, _⟩ => ⟨S32x16384x256, .f32⟩
  | .hbm, ⟨24, _⟩ => ⟨S_, .f32⟩
  | .hbm, ⟨25, _⟩ => ⟨S32x16384x256, .f32⟩
  | .hbm, ⟨26, _⟩ => ⟨S32x16384x256, .f32⟩
  | .hbm, ⟨27, _⟩ => ⟨S32x16384x256, .f32⟩
  | .hbm, ⟨28, _⟩ => ⟨S32x65536, .f32⟩
  | .hbm, ⟨29, _⟩ => ⟨S32x256x256, .f32⟩
  | .hbm, ⟨30, _⟩ => ⟨S32x256, .f32⟩
  | .hbm, ⟨31, _⟩ => ⟨S32x256x256, .f32⟩
  | .hbm, ⟨32, _⟩ => ⟨S32x16384x256, .f32⟩
  | .hbm, ⟨33, _⟩ => ⟨S32x1x256, .f32⟩
  | .hbm, ⟨34, _⟩ => ⟨S32x16384x256, .f32⟩
  | .hbm, ⟨35, _⟩ => ⟨S32x16384x256, .f32⟩
  | .hbm, ⟨36, _⟩ => ⟨S_, .f32⟩
  | .hbm, ⟨37, _⟩ => ⟨S32x16384x256, .f32⟩
  | .hbm, ⟨38, _⟩ => ⟨S32x16384x256, .f32⟩
  | .hbm, ⟨39, _⟩ => ⟨S32x16384x256, .f32⟩
  | .hbm, ⟨40, _⟩ => ⟨S32x65536, .f32⟩
  | .hbm, ⟨41, _⟩ => ⟨S32x256x256, .f32⟩
  | .hbm, ⟨42, _⟩ => ⟨S32x256, .f32⟩
  | .hbm, ⟨43, _⟩ => ⟨S32x256x256, .f32⟩
  | .hbm, ⟨44, _⟩ => ⟨S32x16384x256, .f32⟩
  | .hbm, ⟨45, _⟩ => ⟨S32x1x256, .f32⟩
  | .hbm, ⟨46, _⟩ => ⟨S32x16384x256, .f32⟩
  | .hbm, ⟨47, _⟩ => ⟨S32x16384x256, .f32⟩
  | .hbm, ⟨48, _⟩ => ⟨S_, .f32⟩
  | .hbm, ⟨49, _⟩ => ⟨S32x16384x256, .f32⟩
  | .hbm, ⟨50, _⟩ => ⟨S32x16384x256, .f32⟩
  | .hbm, ⟨51, _⟩ => ⟨S32x16384x256, .f32⟩
  | .hbm, ⟨52, _⟩ => ⟨S32x768, .f32⟩
  | .hbm, ⟨53, _⟩ => ⟨S32x3x256, .f32⟩
  | .hbm, ⟨54, _⟩ => ⟨S32x3, .f32⟩
  | .hbm, ⟨55, _⟩ => ⟨S32x256x3, .f32⟩
  | .hbm, ⟨56, _⟩ => ⟨S32x16384x3, .f32⟩
  | .hbm, ⟨57, _⟩ => ⟨S32x1x3, .f32⟩
  | .hbm, ⟨58, _⟩ => ⟨S32x16384x3, .f32⟩
  | .hbm, ⟨59, _⟩ => ⟨S32x16384x3, .f32⟩
  | _, _ => ⟨S32x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  slices_S32x197888_S32x512_0_0 : S32x197888.Slices ![0, 0] S32x512
  shapeCasts_S32x512_S32x256x2 : S32x512.ShapeCasts S32x256x2
  slices_S32x1027_S32x256_0_0 : S32x1027.Slices ![0, 0] S32x256
  transposes_S32x256x2_S32x2x256_0_2_1 : S32x256x2.Transposes [0, 2, 1] S32x2x256
  bcast_S32x256_S32x1x256_0_2 : S32x256.BroadcastsInDim S32x1x256 (![0, 2] : Fin 2 → Fin S32x1x256.rank)
  bcast_S32x1x256_S32x16384x256_0_1_2 : S32x1x256.BroadcastsInDim S32x16384x256 (![0, 1, 2] : Fin 3 → Fin S32x16384x256.rank)
  bcast_S_S32x16384x256 : S_.BroadcastsInDim S32x16384x256 (![] : Fin 0 → Fin S32x16384x256.rank)
  slices_S32x197888_S32x65536_0_512 : S32x197888.Slices ![0, 512] S32x65536
  shapeCasts_S32x65536_S32x256x256 : S32x65536.ShapeCasts S32x256x256
  slices_S32x1027_S32x256_0_256 : S32x1027.Slices ![0, 256] S32x256
  transposes_S32x256x256_S32x256x256_0_2_1 : S32x256x256.Transposes [0, 2, 1] S32x256x256
  slices_S32x197888_S32x65536_0_66048 : S32x197888.Slices ![0, 66048] S32x65536
  slices_S32x1027_S32x256_0_512 : S32x1027.Slices ![0, 512] S32x256
  slices_S32x197888_S32x65536_0_131584 : S32x197888.Slices ![0, 131584] S32x65536
  slices_S32x1027_S32x256_0_768 : S32x1027.Slices ![0, 768] S32x256
  slices_S32x197888_S32x768_0_197120 : S32x197888.Slices ![0, 197120] S32x768
  shapeCasts_S32x768_S32x3x256 : S32x768.ShapeCasts S32x3x256
  slices_S32x1027_S32x3_0_1024 : S32x1027.Slices ![0, 1024] S32x3
  transposes_S32x3x256_S32x256x3_0_2_1 : S32x3x256.Transposes [0, 2, 1] S32x256x3
  bcast_S32x3_S32x1x3_0_2 : S32x3.BroadcastsInDim S32x1x3 (![0, 2] : Fin 2 → Fin S32x1x3.rank)
  bcast_S32x1x3_S32x16384x3_0_1_2 : S32x1x3.BroadcastsInDim S32x16384x3 (![0, 1, 2] : Fin 3 → Fin S32x16384x3.rank)
  dot_S32x16384x2_S32x2x256_S32x16384x256_2_1_1_2_0_0_wf : DotDims.WF S32x16384x2 S32x2x256 S32x16384x256 [2] [1] [1] [2] [0] [0]
  dot_S32x16384x256_S32x256x256_S32x16384x256_2_1_1_2_0_0_wf : DotDims.WF S32x16384x256 S32x256x256 S32x16384x256 [2] [1] [1] [2] [0] [0]
  dot_S32x16384x256_S32x256x3_S32x16384x3_2_1_1_2_0_0_wf : DotDims.WF S32x16384x256 S32x256x3 S32x16384x3 [2] [1] [1] [2] [0] [0]

variable [Facts₀]

def dot_S32x16384x2_S32x2x256_S32x16384x256_2_1_1_2_0_0 : DotDims S32x16384x2 S32x2x256 S32x16384x256 where
  lhsContracting := [2]
  rhsContracting := [1]
  lhsNonContracting := [1]
  rhsNonContracting := [2]
  lhsBatch := [0]
  rhsBatch := [0]
  wf := dot_S32x16384x2_S32x2x256_S32x16384x256_2_1_1_2_0_0_wf
def dot_S32x16384x256_S32x256x256_S32x16384x256_2_1_1_2_0_0 : DotDims S32x16384x256 S32x256x256 S32x16384x256 where
  lhsContracting := [2]
  rhsContracting := [1]
  lhsNonContracting := [1]
  rhsNonContracting := [2]
  lhsBatch := [0]
  rhsBatch := [0]
  wf := dot_S32x16384x256_S32x256x256_S32x16384x256_2_1_1_2_0_0_wf
def dot_S32x16384x256_S32x256x3_S32x16384x3_2_1_1_2_0_0 : DotDims S32x16384x256 S32x256x3 S32x16384x3 where
  lhsContracting := [2]
  rhsContracting := [1]
  lhsNonContracting := [1]
  rhsNonContracting := [2]
  lhsBatch := [0]
  rhsBatch := [0]
  wf := dot_S32x16384x256_S32x256x3_S32x16384x3_2_1_1_2_0_0_wf

class Facts : Prop extends Facts₀ where

variable [Facts]
-- ==== Proof.Net.lean ====
/-
  The network both programs compute, on the extended reals.

  A sample's network is four sine layers and one linear layer. A linear layer with weights W (one row per output
  unit, the torch convention) and bias β sends a vector h to the vector whose entry j is Σ_k h_k · W_{j,k} + β_j;
  a sine layer applies x ↦ sin (ω · x) to every entry of a linear layer's result, with ω = 30. The sums are taken in
  the order of the contracted coordinate and nothing is rearranged, so no finiteness is needed anywhere: every
  step below is the same expression on both sides.
-/
import Idealize.ShloMosaic.PureOps.Ideal

noncomputable section

namespace Cert.Siren

open Idealize.ShloMosaic

/-- The frequency ω = 30, as the float word both programs print. -/
def om : EReal := Ideal.ofBits .f32 0x41F00000#32

/-- A linear layer: entry j is Σ_k h_k · W_{j,k} + β_j. -/
def lin {K J : Nat} (h : Fin K → EReal) (W : Fin J → Fin K → EReal) (β : Fin J → EReal) : Fin J → EReal :=
  fun j => (∑ k : Fin K, h k * W j k) + β j

/-- A sine layer: sin (ω · ·) of a linear layer, entry by entry. -/
def act {K J : Nat} (h : Fin K → EReal) (W : Fin J → Fin K → EReal) (β : Fin J → EReal) : Fin J → EReal :=
  fun j => Ideal.sin (om * lin h W β j)

/-- One sample's network at one coordinate row: 2 → 256 → 256 → 256 → 256 sine layers, then 256 → 3 linear. -/
def net (h0 : Fin 2 → EReal) (w0 : Fin 256 → Fin 2 → EReal) (b0 : Fin 256 → EReal)
    (w1 : Fin 256 → Fin 256 → EReal) (b1 : Fin 256 → EReal)
    (w2 : Fin 256 → Fin 256 → EReal) (b2 : Fin 256 → EReal)
    (w3 : Fin 256 → Fin 256 → EReal) (b3 : Fin 256 → EReal)
    (w4 : Fin 3 → Fin 256 → EReal) (b4 : Fin 3 → EReal) : Fin 3 → EReal :=
  lin (act (act (act (act h0 w0 b0) w1 b1) w2 b2) w3 b3) w4 b4

end Cert.Siren

end
-- ==== Proof.RefNet.lean ====
/-
  The reference, read at an index: its result at (b, n, j) is the network of sample b applied to coordinate row n.

  The reference slices each layer's weights out of sample b's flat weight vector and reshapes them to one row per
  output unit, transposes them, and contracts the running activations' last axis with the transposed weights'
  middle axis, batched over the sample; the bias slice is repeated over the rows. Reading the transpose back, entry
  (b, n, j) of a layer's product is Σ_k a(b,n,k) · W(b,j,k) with W the reshaped (untransposed) slice, which is the
  linear layer of the network; the sine layers multiply by the splat of ω and take the sine.
  The weight and bias pieces are kept as the reference's own terms (the slices and reshapes of the flat vectors).
-/
import proofs.«172699_j15745350108029_2_alg».proof.Proof.Gen.ReferenceIdeal.Read
import proofs.«172699_j15745350108029_2_alg».proof.Proof.Net

noncomputable section

namespace Cert.Siren.Ref

open Cert.ReferenceIdeal Cert.ReferenceIdeal.Read Idealize.ShloMosaic Idealize.ShloMosaic.ValueIdx Cert.Siren

variable (x0 : (⟨S32x16384x2, .f32⟩ : BufTy).Contents (Elt Ideal)) (x1 : (⟨S32x197888, .f32⟩ : BufTy).Contents (Elt Ideal))
  (x2 : (⟨S32x1027, .f32⟩ : BufTy).Contents (Elt Ideal))

/-- Sample b's coordinate row n. -/
def row (b : Fin 32) (n : Fin 16384) : Fin 2 → EReal := fun k => x0 (ix3 b n k)

/-- Sample b's weights of the five layers, one row per output unit, and its biases: the reference's slices. -/
def w0 (b : Fin 32) : Fin 256 → Fin 2 → EReal := fun j k => val_main_v1 (F := Ideal) x1 (ix3 b j k)
def w1 (b : Fin 32) : Fin 256 → Fin 256 → EReal := fun j k => val_main_v12 (F := Ideal) x1 (ix3 b j k)
def w2 (b : Fin 32) : Fin 256 → Fin 256 → EReal := fun j k => val_main_v23 (F := Ideal) x1 (ix3 b j k)
def w3 (b : Fin 32) : Fin 256 → Fin 256 → EReal := fun j k => val_main_v34 (F := Ideal) x1 (ix3 b j k)
def w4 (b : Fin 32) : Fin 3 → Fin 256 → EReal := fun j k => val_main_v45 (F := Ideal) x1 (ix3 b j k)
def b0 (b : Fin 32) : Fin 256 → EReal := fun j => val_main_v2 (F := Ideal) x2 (ix2 b j)
def b1 (b : Fin 32) : Fin 256 → EReal := fun j => val_main_v13 (F := Ideal) x2 (ix2 b j)
def b2 (b : Fin 32) : Fin 256 → EReal := fun j => val_main_v24 (F := Ideal) x2 (ix2 b j)
def b3 (b : Fin 32) : Fin 256 → EReal := fun j => val_main_v35 (F := Ideal) x2 (ix2 b j)
def b4 (b : Fin 32) : Fin 3 → EReal := fun j => val_main_v46 (F := Ideal) x2 (ix2 b j)

/-- The first sine layer's activations. -/
theorem layer1 (b : Fin 32) (n : Fin 16384) (j : Fin 256) :
    val_main_v10 (F := Ideal) x0 x1 x2 (ix3 b n j) = act (row x0 b n) (w0 x1 b) (b0 x2 b) j := by
  rw [val_main_v10_apply, val_main_v9_apply, val_main_v8_apply, val_main_cst_apply, val_main_v7_apply,
    val_main_v4_apply, val_main_v6_apply, val_main_v5_apply]
  have e1 : ∀ k, lidx_main_v4 (ix3 b n j) k = ix3 b n k := fun k => funext fun a => by match a with | ⟨0, _⟩ => rfl | ⟨1, _⟩ => rfl | ⟨2, _⟩ => rfl
  have e2 : ∀ k, idx_main_v3 (ridx_main_v4 (ix3 b n j) k) = ix3 b j k := fun k => funext fun a => by match a with | ⟨0, _⟩ => rfl | ⟨1, _⟩ => rfl | ⟨2, _⟩ => rfl
  have e3 : idx_main_v5 (idx_main_v6 (ix3 b n j)) = ix2 b j := funext fun a => by match a with | ⟨0, _⟩ => rfl | ⟨1, _⟩ => rfl
  simp only [val_main_v3_apply, e1, e2, e3]
  rfl

/-- The second sine layer's activations. -/
theorem layer2 (b : Fin 32) (n : Fin 16384) (j : Fin 256) :
    val_main_v21 (F := Ideal) x0 x1 x2 (ix3 b n j) = act (act (row x0 b n) (w0 x1 b) (b0 x2 b)) (w1 x1 b) (b1 x2 b) j := by
  rw [val_main_v21_apply, val_main_v20_apply, val_main_v19_apply, val_main_cst_0_apply, val_main_v18_apply,
    val_main_v15_apply, val_main_v17_apply, val_main_v16_apply]
  have e1 : ∀ k, lidx_main_v15 (ix3 b n j) k = ix3 b n k := fun k => funext fun a => by match a with | ⟨0, _⟩ => rfl | ⟨1, _⟩ => rfl | ⟨2, _⟩ => rfl
  have e2 : ∀ k, idx_main_v14 (ridx_main_v15 (ix3 b n j) k) = ix3 b j k := fun k => funext fun a => by match a with | ⟨0, _⟩ => rfl | ⟨1, _⟩ => rfl | ⟨2, _⟩ => rfl
  have e3 : idx_main_v16 (idx_main_v17 (ix3 b n j)) = ix2 b j := funext fun a => by match a with | ⟨0, _⟩ => rfl | ⟨1, _⟩ => rfl
  simp only [val_main_v14_apply, e1, e2, e3, layer1]
  rfl

/-- The third sine layer's activations. -/
theorem layer3 (b : Fin 32) (n : Fin 16384) (j : Fin 256) :
    val_main_v32 (F := Ideal) x0 x1 x2 (ix3 b n j)
      = act (act (act (row x0 b n) (w0 x1 b) (b0 x2 b)) (w1 x1 b) (b1 x2 b)) (w2 x1 b) (b2 x2 b) j := by
  rw [val_main_v32_apply, val_main_v31_apply, val_main_v30_apply, val_main_cst_1_apply, val_main_v29_apply,
    val_main_v26_apply, val_main_v28_apply, val_main_v27_apply]
  have e1 : ∀ k, lidx_main_v26 (ix3 b n j) k = ix3 b n k := fun k => funext fun a => by match a with | ⟨0, _⟩ => rfl | ⟨1, _⟩ => rfl | ⟨2, _⟩ => rfl
  have e2 : ∀ k, idx_main_v25 (ridx_main_v26 (ix3 b n j) k) = ix3 b j k := fun k => funext fun a => by match a with | ⟨0, _⟩ => rfl | ⟨1, _⟩ => rfl | ⟨2, _⟩ => rfl
  have e3 : idx_main_v27 (idx_main_v28 (ix3 b n j)) = ix2 b j := funext fun a => by match a with | ⟨0, _⟩ => rfl | ⟨1, _⟩ => rfl
  simp only [val_main_v25_apply, e1, e2, e3, layer2]
  rfl

/-- The fourth sine layer's activations. -/
theorem layer4 (b : Fin 32) (n : Fin 16384) (j : Fin 256) :
    val_main_v43 (F := Ideal) x0 x1 x2 (ix3 b n j)
      = act (act (act (act (row x0 b n) (w0 x1 b) (b0 x2 b)) (w1 x1 b) (b1 x2 b)) (w2 x1 b) (b2 x2 b)) (w3 x1 b) (b3 x2 b) j := by
  rw [val_main_v43_apply, val_main_v42_apply, val_main_v41_apply, val_main_cst_2_apply, val_main_v40_apply,
    val_main_v37_apply, val_main_v39_apply, val_main_v38_apply]
  have e1 : ∀ k, lidx_main_v37 (ix3 b n j) k = ix3 b n k := fun k => funext fun a => by match a with | ⟨0, _⟩ => rfl | ⟨1, _⟩ => rfl | ⟨2, _⟩ => rfl
  have e2 : ∀ k, idx_main_v36 (ridx_main_v37 (ix3 b n j) k) = ix3 b j k := fun k => funext fun a => by match a with | ⟨0, _⟩ => rfl | ⟨1, _⟩ => rfl | ⟨2, _⟩ => rfl
  have e3 : idx_main_v38 (idx_main_v39 (ix3 b n j)) = ix2 b j := funext fun a => by match a with | ⟨0, _⟩ => rfl | ⟨1, _⟩ => rfl
  simp only [val_main_v36_apply, e1, e2, e3, layer3]
  rfl

/-- The reference's result at (b, n, j): sample b's network at coordinate row n, output unit j. -/
theorem out (b : Fin 32) (n : Fin 16384) (j : Fin 3) :
    val_main_v51 (F := Ideal) x0 x1 x2 (ix3 b n j)
      = net (row x0 b n) (w0 x1 b) (b0 x2 b) (w1 x1 b) (b1 x2 b) (w2 x1 b) (b2 x2 b) (w3 x1 b) (b3 x2 b) (w4 x1 b) (b4 x2 b) j := by
  rw [val_main_v51_apply, val_main_v48_apply, val_main_v50_apply, val_main_v49_apply]
  have e1 : ∀ k, lidx_main_v48 (ix3 b n j) k = ix3 b n k := fun k => funext fun a => by match a with | ⟨0, _⟩ => rfl | ⟨1, _⟩ => rfl | ⟨2, _⟩ => rfl
  have e2 : ∀ k, idx_main_v47 (ridx_main_v48 (ix3 b n j) k) = ix3 b j k := fun k => funext fun a => by match a with | ⟨0, _⟩ => rfl | ⟨1, _⟩ => rfl | ⟨2, _⟩ => rfl
  have e3 : idx_main_v49 (idx_main_v50 (ix3 b n j)) = ix2 b j := funext fun a => by match a with | ⟨0, _⟩ => rfl | ⟨1, _⟩ => rfl
  simp only [val_main_v47_apply, e1, e2, e3, layer4]
  rfl

end Cert.Siren.Ref

end
-- ==== Proof.Spec.lean ====
/-
  The result both programs end with, as one function of the three argument arrays: entry (b, n, j) is sample b's
  network at coordinate row n, output unit j — and the reference's result is that function.
-/
import proofs.«172699_j15745350108029_2_alg».proof.Proof.RefNet

noncomputable section

namespace Cert.Siren

open Cert.ReferenceIdeal Cert.ReferenceIdeal.Read Idealize.ShloMosaic Idealize.ShloMosaic.ValueIdx

variable (x0 : (⟨S32x16384x2, .f32⟩ : BufTy).Contents (Elt Ideal)) (x1 : (⟨S32x197888, .f32⟩ : BufTy).Contents (Elt Ideal))
  (x2 : (⟨S32x1027, .f32⟩ : BufTy).Contents (Elt Ideal))

/-- Sample b's network at coordinate row n. -/
def sample (b : Fin 32) (n : Fin 16384) : Fin 3 → EReal :=
  net (Ref.row x0 b n) (Ref.w0 x1 b) (Ref.b0 x2 b) (Ref.w1 x1 b) (Ref.b1 x2 b) (Ref.w2 x1 b) (Ref.b2 x2 b)
    (Ref.w3 x1 b) (Ref.b3 x2 b) (Ref.w4 x1 b) (Ref.b4 x2 b)

/-- The whole result array. -/
def G : S32x16384x3.Idx → EReal := fun i => sample x0 x1 x2 (i 0) (i 1) (i 2)

theorem G_ix3 (b : Fin 32) (n : Fin 16384) (j : Fin 3) : G x0 x1 x2 (ix3 b n j) = sample x0 x1 x2 b n j := rfl

/-- The reference's result is that array. -/
theorem ref_eq : val_main_v51 (F := Ideal) x0 x1 x2 = G x0 x1 x2 := by
  funext i
  obtain ⟨b, n, j, rfl⟩ : ∃ (b : Fin 32) (n : Fin 16384) (j : Fin 3), i = ix3 b n j := ⟨i 0, i 1, i 2, eq_ix3 i⟩
  exact Ref.out x0 x1 x2 b n j

end Cert.Siren

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.Layer.lean ====
/-
  One layer of the kernel body, read at an index, on the extended reals.

  The body keeps a tile of rows as an M × K matrix l, loads a sample's weights as a 1 × N × K block and its bias as a
  1 × 1 × N block, and computes l · Wᵀ + bias: the unit axes are dropped by shape casts, the product contracts the
  second axis of both factors and accumulates into zero, and the bias row is repeated down the M rows. At (i, j) that
  is Σ_k l(i,k) · W(0,j,k) + bias(0,0,j): the linear layer of the network applied to row i. A sine layer multiplies by
  the splat of ω, takes the sine and changes the float format, which on the extended reals is the identity.
-/
import proofs.«172699_j15745350108029_2_alg».proof.Proof.Net
import proofs.«172699_j15745350108029_2_alg».proof.Proof.LibDotT
import Idealize.ShloMosaic.Lib.ValueIdx
import Idealize.ShloMosaic.Lib.ValueLayout
import Idealize.ShloMosaic.Lib.Pipeline.Value

noncomputable section

namespace Cert.Siren

open Idealize.ShloMosaic Idealize.ShloMosaic.ValueIdx

variable {M K N : Nat} {φ : FTy}

/-- The affine part of a layer at (i, j): row i of the tile against row j of the weights, plus entry j of the bias. -/
theorem preact_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![M, K]⟩ φ) (wt : FVec Ideal ⟨3, ![1, N, K]⟩ .bf16) (bias : FVec Ideal ⟨3, ![1, 1, N]⟩ .f32)
    (h1 : (⟨3, ![1, N, K]⟩ : Shape).ShapeCasts ⟨2, ![N, K]⟩) (h2 : (⟨3, ![1, 1, N]⟩ : Shape).ShapeCasts ⟨2, ![1, N]⟩)
    (h3 : (⟨2, ![1, N]⟩ : Shape).Broadcasts ⟨2, ![M, N]⟩) (i : Fin M) (j : Fin N) :
    addf (FloatOps.matmul d none l (shapeCast ⟨2, ![N, K]⟩ wt h1) (constant ⟨2, ![M, N]⟩ .f32 0x00000000#32))
        (broadcastTo ⟨2, ![M, N]⟩ (shapeCast ⟨2, ![1, N]⟩ bias h2) h3) (ix2 i j)
      = lin (fun k => l (ix2 i k)) (fun j k => wt (ix3 (0 : Fin 1) j k)) (fun j => bias (ix3 (0 : Fin 1) (0 : Fin 1) j)) j := by
  rw [addf_apply, LibDotT.matmul_zero_transposed_apply d hlc hrc hln hrn hlb hrb, broadcastTo_1b_ab_apply,
    shapeCast_1ab_ab_apply]
  unfold lin
  refine congrArg (· + _) (Finset.sum_congr rfl fun k _ => ?_)
  exact congrArg (l (ix2 i k) * ·) (shapeCast_1ab_ab_apply wt h1 j k)

/-- A sine layer at (i, j): the sine of ω times the affine part; the change of float format after it is the identity. -/
theorem hidden_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : FVec Ideal ⟨2, ![M, K]⟩ φ) (wt : FVec Ideal ⟨3, ![1, N, K]⟩ .bf16) (bias : FVec Ideal ⟨3, ![1, 1, N]⟩ .f32)
    (h1 : (⟨3, ![1, N, K]⟩ : Shape).ShapeCasts ⟨2, ![N, K]⟩) (h2 : (⟨3, ![1, 1, N]⟩ : Shape).ShapeCasts ⟨2, ![1, N]⟩)
    (h3 : (⟨2, ![1, N]⟩ : Shape).Broadcasts ⟨2, ![M, N]⟩) (hb : FTy.bits .bf16 < FTy.bits .f32) (i : Fin M) (j : Fin N) :
    (truncf .bf16 (sin (mulf (broadcast ⟨2, ![M, N]⟩ (Scalar.ofBits (F := Ideal) .f32 0x41F00000#32))
        (addf (FloatOps.matmul d none l (shapeCast ⟨2, ![N, K]⟩ wt h1) (constant ⟨2, ![M, N]⟩ .f32 0x00000000#32))
          (broadcastTo ⟨2, ![M, N]⟩ (shapeCast ⟨2, ![1, N]⟩ bias h2) h3)))) hb : FVec Ideal ⟨2, ![M, N]⟩ .bf16) (ix2 i j)
      = act (fun k => l (ix2 i k)) (fun j k => wt (ix3 (0 : Fin 1) j k)) (fun j => bias (ix3 (0 : Fin 1) (0 : Fin 1) j)) j := by
  show Ideal.sin (Ideal.ofBits .f32 0x41F00000#32 * _) = _
  rw [preact_apply d hlc hrc hln hrn hlb hrb l wt bias h1 h2 h3 i j]
  rfl

end Cert.Siren

end
-- ==== Proof.Payload.lean ====
/-
  The kernel body's stored value at an index, on the extended reals.

  The body loads a tile of 8192 coordinate rows of one sample, that sample's five weight blocks (one row per output
  unit) and five bias blocks, and stores, for row r of the tile and output unit j, the sample's network applied to
  coordinate row r: four times "contract with the weights' rows, add the bias, multiply by ω, take the sine, change
  the float format (the identity here)", then once more "contract and add the bias". Each step is read at an index by
  the layer lemmas; the rows of the running activations stay the rows of the tile throughout.
-/
import proofs.«172699_j15745350108029_2_alg».proof.Proof.Gen.KernelIdeal.Skeleton
import proofs.«172699_j15745350108029_2_alg».proof.Proof.Layer

noncomputable section

namespace Cert.Siren.Kernel

open Cert.KernelIdeal Cert.KernelIdeal.Gen Cert.KernelIdeal.Facts₀ Cert.KernelIdeal.Facts
open Idealize.ShloMosaic Idealize.ShloMosaic.ValueIdx Cert.Siren

/-- The stored block at (0, r, j) is the network of the loaded weight and bias blocks at the tile's coordinate row r. -/
theorem pay_apply (v0 : FVec Ideal S1x8192x2 .bf16) (v2 : FVec Ideal S1x256x2 .bf16) (v5 : FVec Ideal S1x1x256 .f32)
    (v13 : FVec Ideal S1x256x256 .bf16) (v16 : FVec Ideal S1x1x256 .f32)
    (v24 : FVec Ideal S1x256x256 .bf16) (v27 : FVec Ideal S1x1x256 .f32)
    (v35 : FVec Ideal S1x256x256 .bf16) (v38 : FVec Ideal S1x1x256 .f32)
    (v46 : FVec Ideal S1x3x256 .bf16) (v49 : FVec Ideal S1x1x3 .f32) (r : Fin 8192) (j : Fin 3) :
    k0_pay1 (F := Ideal) (k0_pay2 (F := Ideal) v0 v2 v5 v13 v16 v24 v27) (Scalar.ofBits .f32 0x41F00000#32) v35 v38 v46 v49
        (ix3 (0 : Fin 1) r j)
      = net (fun k => v0 (ix3 (0 : Fin 1) r k))
          (fun j k => v2 (ix3 (0 : Fin 1) j k)) (fun j => v5 (ix3 (0 : Fin 1) (0 : Fin 1) j))
          (fun j k => v13 (ix3 (0 : Fin 1) j k)) (fun j => v16 (ix3 (0 : Fin 1) (0 : Fin 1) j))
          (fun j k => v24 (ix3 (0 : Fin 1) j k)) (fun j => v27 (ix3 (0 : Fin 1) (0 : Fin 1) j))
          (fun j k => v35 (ix3 (0 : Fin 1) j k)) (fun j => v38 (ix3 (0 : Fin 1) (0 : Fin 1) j))
          (fun j k => v46 (ix3 (0 : Fin 1) j k)) (fun j => v49 (ix3 (0 : Fin 1) (0 : Fin 1) j)) j := by
  unfold k0_pay1 k0_pay2 net
  dsimp only
  refine (shapeCast_ab_1ab_apply _ _ (0 : Fin 1) r j).trans ?_
  refine (preact_apply dot_S8192x256_S3x256_S8192x3_1_1_0_0_n_n rfl rfl rfl rfl rfl rfl _ v46 v49 _ _ _ r j).trans ?_
  refine congrArg (fun h => lin h _ _ j) (funext fun k4 => ?_)
  refine (hidden_apply dot_S8192x256_S256x256_S8192x256_1_1_0_0_n_n rfl rfl rfl rfl rfl rfl _ v35 v38 _ _ _ _ r k4).trans ?_
  refine congrArg (fun h => act h _ _ k4) (funext fun k3 => ?_)
  refine (hidden_apply dot_S8192x256_S256x256_S8192x256_1_1_0_0_n_n rfl rfl rfl rfl rfl rfl _ v24 v27 _ _ _ _ r k3).trans ?_
  refine congrArg (fun h => act h _ _ k3) (funext fun k2 => ?_)
  refine (hidden_apply dot_S8192x256_S256x256_S8192x256_1_1_0_0_n_n rfl rfl rfl rfl rfl rfl _ v13 v16 _ _ _ _ r k2).trans ?_
  refine congrArg (fun h => act h _ _ k2) (funext fun k1 => ?_)
  refine (hidden_apply dot_S8192x2_S256x2_S8192x256_1_1_0_0_n_n rfl rfl rfl rfl rfl rfl _ v2 v5 _ _ _ _ r k1).trans ?_
  exact congrArg (fun h => act h _ _ k1) (funext fun k0 => shapeCast_1ab_ab_apply v0 _ r k0)

end Cert.Siren.Kernel

end
-- ==== Proof.LibUnitAxes.lean ====
/-
  Unit axes added or repeated, read at an index.

  A shape cast that only inserts unit axes keeps the row-major position, so it reads the operand at the index with
  those axes removed: [a, b] → [a, 1, b] at (i, u, j) is the operand at (i, j), and [a] → [1, 1, a] at (u, u', i) is the
  operand at i. A broadcast along unit axes of a three-axis array reads the operand with those coordinates put to 0:
  [a, 1, c], [1, b, c] and [1, 1, c] broadcast to [a, b, c]. All five are generic in the extents and in the element
  type; an axis of the operand whose extent happens to be 1 has only the coordinate 0, so the two readings agree there.
-/
import Idealize.ShloMosaic.Lib.ValueIdx
import Idealize.ShloMosaic.Lib.Pipeline.Value

noncomputable section

namespace Cert.LibUnitAxes

open Idealize.ShloMosaic Idealize.ShloMosaic.ValueIdx

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add, Nat.mul_one])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

end Cert.LibUnitAxes

end
-- ==== Proof.KernelHost.lean ====
/-
  The arrays the kernel's region finds, in terms of the program's arguments, on the extended reals.

  Before the region the host cuts each layer's weights out of the flat weight array, reshapes them to one row per
  output unit and changes their float format; it cuts each layer's bias out of the flat bias array and gives it a
  unit middle axis; and it changes the coordinates' float format. On the extended reals a change of float format is
  the identity, so the weight arrays the region finds are the reference's reshaped slices of the same flat array,
  the coordinate array is the argument itself, and a bias array read at (b, 0, j) is the bias slice at (b, j).
-/
import proofs.«172699_j15745350108029_2_alg».proof.Proof.Gen.KernelIdeal.Frame
import proofs.«172699_j15745350108029_2_alg».proof.Proof.Gen.ReferenceIdeal.Read
import proofs.«172699_j15745350108029_2_alg».proof.Proof.LibUnitAxes
import Idealize.ShloMosaic.Lib.StableHlo.Run

noncomputable section

namespace Cert.Siren.Kernel

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The three argument arrays the result depends on, as the program is launched with them. -/
abbrev X0 (c : Dev nD) : S32x16384x2.Idx → EReal := m ((c : Thread nD τ).loc main_arg0)
abbrev X1 (c : Dev nD) : S32x197888.Idx → EReal := m ((c : Thread nD τ).loc main_arg1)
abbrev X2 (c : Dev nD) : S32x1027.Idx → EReal := m ((c : Thread nD τ).loc main_arg2)

/-- The coordinates the region finds are the argument's. -/
theorem coords_eq (c : Dev nD) : (V m c main_v25 : S32x16384x2.Idx → EReal) = X0 m c := by
  dsimp only [Gen.V, Gen.hostOps0]; after_results; rfl

/-- The five weight arrays the region finds are the reshaped slices of the flat weight array. -/
theorem wts0_eq (c : Dev nD) : (V m c main_v2 : S32x256x2.Idx → EReal) = Cert.ReferenceIdeal.Read.val_main_v1 (F := Ideal) (X1 m c) := by
  dsimp only [Gen.V, Gen.hostOps0]; after_results; rfl
theorem wts1_eq (c : Dev nD) : (V m c main_v7 : S32x256x256.Idx → EReal) = Cert.ReferenceIdeal.Read.val_main_v12 (F := Ideal) (X1 m c) := by
  dsimp only [Gen.V, Gen.hostOps0]; after_results; rfl
theorem wts2_eq (c : Dev nD) : (V m c main_v12 : S32x256x256.Idx → EReal) = Cert.ReferenceIdeal.Read.val_main_v23 (F := Ideal) (X1 m c) := by
  dsimp only [Gen.V, Gen.hostOps0]; after_results; rfl
theorem wts3_eq (c : Dev nD) : (V m c main_v17 : S32x256x256.Idx → EReal) = Cert.ReferenceIdeal.Read.val_main_v34 (F := Ideal) (X1 m c) := by
  dsimp only [Gen.V, Gen.hostOps0]; after_results; rfl
theorem wts4_eq (c : Dev nD) : (V m c main_v22 : S32x3x256.Idx → EReal) = Cert.ReferenceIdeal.Read.val_main_v45 (F := Ideal) (X1 m c) := by
  dsimp only [Gen.V, Gen.hostOps0]; after_results; rfl

/-- The five bias arrays the region finds, at (b, 0, j), are the bias slices at (b, j). -/
theorem bias0_apply (c : Dev nD) (b : Fin 32) (j : Fin 256) :
    (V m c main_v4 : S32x1x256.Idx → EReal) (ix3 b (0 : Fin 1) j) = Cert.ReferenceIdeal.Read.val_main_v2 (F := Ideal) (X2 m c) (ix2 b j) := by
  have e : (V m c main_v4 : S32x1x256.Idx → EReal)
      = shapeCast S32x1x256 (Cert.ReferenceIdeal.Read.val_main_v2 (F := Ideal) (X2 m c)) Facts₀.shapeCasts_S32x256_S32x1x256 := by
    dsimp only [Gen.V, Gen.hostOps0]; after_results; rfl
  rw [e]
  exact LibUnitAxes.shapeCast_ab_a1b_apply _ _ b 0 j
theorem bias1_apply (c : Dev nD) (b : Fin 32) (j : Fin 256) :
    (V m c main_v9 : S32x1x256.Idx → EReal) (ix3 b (0 : Fin 1) j) = Cert.ReferenceIdeal.Read.val_main_v13 (F := Ideal) (X2 m c) (ix2 b j) := by
  have e : (V m c main_v9 : S32x1x256.Idx → EReal)
      = shapeCast S32x1x256 (Cert.ReferenceIdeal.Read.val_main_v13 (F := Ideal) (X2 m c)) Facts₀.shapeCasts_S32x256_S32x1x256 := by
    dsimp only [Gen.V, Gen.hostOps0]; after_results; rfl
  rw [e]
  exact LibUnitAxes.shapeCast_ab_a1b_apply _ _ b 0 j
theorem bias2_apply (c : Dev nD) (b : Fin 32) (j : Fin 256) :
    (V m c main_v14 : S32x1x256.Idx → EReal) (ix3 b (0 : Fin 1) j) = Cert.ReferenceIdeal.Read.val_main_v24 (F := Ideal) (X2 m c) (ix2 b j) := by
  have e : (V m c main_v14 : S32x1x256.Idx → EReal)
      = shapeCast S32x1x256 (Cert.ReferenceIdeal.Read.val_main_v24 (F := Ideal) (X2 m c)) Facts₀.shapeCasts_S32x256_S32x1x256 := by
    dsimp only [Gen.V, Gen.hostOps0]; after_results; rfl
  rw [e]
  exact LibUnitAxes.shapeCast_ab_a1b_apply _ _ b 0 j
theorem bias3_apply (c : Dev nD) (b : Fin 32) (j : Fin 256) :
    (V m c main_v19 : S32x1x256.Idx → EReal) (ix3 b (0 : Fin 1) j) = Cert.ReferenceIdeal.Read.val_main_v35 (F := Ideal) (X2 m c) (ix2 b j) := by
  have e : (V m c main_v19 : S32x1x256.Idx → EReal)
      = shapeCast S32x1x256 (Cert.ReferenceIdeal.Read.val_main_v35 (F := Ideal) (X2 m c)) Facts₀.shapeCasts_S32x256_S32x1x256 := by
    dsimp only [Gen.V, Gen.hostOps0]; after_results; rfl
  rw [e]
  exact LibUnitAxes.shapeCast_ab_a1b_apply _ _ b 0 j
theorem bias4_apply (c : Dev nD) (b : Fin 32) (j : Fin 3) :
    (V m c main_v24 : S32x1x3.Idx → EReal) (ix3 b (0 : Fin 1) j) = Cert.ReferenceIdeal.Read.val_main_v46 (F := Ideal) (X2 m c) (ix2 b j) := by
  have e : (V m c main_v24 : S32x1x3.Idx → EReal)
      = shapeCast S32x1x3 (Cert.ReferenceIdeal.Read.val_main_v46 (F := Ideal) (X2 m c)) Facts₀.shapeCasts_S32x3_S32x1x3 := by
    dsimp only [Gen.V, Gen.hostOps0]; after_results; rfl
  rw [e]
  exact LibUnitAxes.shapeCast_ab_a1b_apply _ _ b 0 j

end Cert.Siren.Kernel

end
-- ==== Proof.KernelValue.lean ====
/-
  From the blocks the grid points write to the whole result array, on the extended reals.

  The grid has one point per sample b and half h of its 16384 coordinate rows. At that point the coordinate window
  holds rows 8192·h … 8192·h + 8191 of sample b, every weight and bias window holds sample b's block (their index
  maps ignore h), and the point writes back rows 8192·h … of sample b of the result. So what a point writes back is
  the corresponding block of ONE array, entry (b, n, j) of which is sample b's network at coordinate row n; the 64
  blocks tile the result array, which therefore ends holding that array.
-/
import proofs.«172699_j15745350108029_2_alg».proof.Proof.Gen.KernelIdeal.Value
import proofs.«172699_j15745350108029_2_alg».proof.Proof.Payload
import proofs.«172699_j15745350108029_2_alg».proof.Proof.KernelHost
import proofs.«172699_j15745350108029_2_alg».proof.Proof.Spec

noncomputable section

namespace Cert.Siren.Kernel

open Cert.KernelIdeal Cert.KernelIdeal.Gen
open Idealize.ShloMosaic Idealize.ShloMosaic.TcCoe Idealize.SL.Sem Idealize.ShloMosaic.ValueIdx
open Idealize.ShloMosaic.Pipeline (Dat)
open Cert.Siren

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps over the grid -/

/-- The output window's block index at a point: a sample, a half, and nothing along the last axis. -/
theorem idx_out : ∀ t : Fin cfg0.N, win0_11.index t (0 : Fin 3) < 32 ∧ win0_11.index t (1 : Fin 3) < 2
    ∧ win0_11.index t (2 : Fin 3) = 0 :=
  (by decide +kernel : ∀ t : Fin grid0.N, _)

/-- The coordinate window moves with the output window. -/
theorem idx_x : ∀ t : Fin cfg0.N, win0_0.index t (0 : Fin 3) = win0_11.index t (0 : Fin 3)
    ∧ win0_0.index t (1 : Fin 3) = win0_11.index t (1 : Fin 3) ∧ win0_0.index t (2 : Fin 3) = 0 :=
  (by decide +kernel : ∀ t : Fin grid0.N, _)

/-- Each weight and bias window follows the output window's sample and stays at the origin otherwise. -/
theorem idx_p1 : ∀ t : Fin cfg0.N, win0_1.index t (0 : Fin 3) = win0_11.index t (0 : Fin 3)
    ∧ win0_1.index t (1 : Fin 3) = 0 ∧ win0_1.index t (2 : Fin 3) = 0 :=
  (by decide +kernel : ∀ t : Fin grid0.N, _)
theorem idx_p2 : ∀ t : Fin cfg0.N, win0_2.index t (0 : Fin 3) = win0_11.index t (0 : Fin 3)
    ∧ win0_2.index t (1 : Fin 3) = 0 ∧ win0_2.index t (2 : Fin 3) = 0 :=
  (by decide +kernel : ∀ t : Fin grid0.N, _)
theorem idx_p3 : ∀ t : Fin cfg0.N, win0_3.index t (0 : Fin 3) = win0_11.index t (0 : Fin 3)
    ∧ win0_3.index t (1 : Fin 3) = 0 ∧ win0_3.index t (2 : Fin 3) = 0 :=
  (by decide +kernel : ∀ t : Fin grid0.N, _)
theorem idx_p4 : ∀ t : Fin cfg0.N, win0_4.index t (0 : Fin 3) = win0_11.index t (0 : Fin 3)
    ∧ win0_4.index t (1 : Fin 3) = 0 ∧ win0_4.index t (2 : Fin 3) = 0 :=
  (by decide +kernel : ∀ t : Fin grid0.N, _)
theorem idx_p5 : ∀ t : Fin cfg0.N, win0_5.index t (0 : Fin 3) = win0_11.index t (0 : Fin 3)
    ∧ win0_5.index t (1 : Fin 3) = 0 ∧ win0_5.index t (2 : Fin 3) = 0 :=
  (by decide +kernel : ∀ t : Fin grid0.N, _)
theorem idx_p6 : ∀ t : Fin cfg0.N, win0_6.index t (0 : Fin 3) = win0_11.index t (0 : Fin 3)
    ∧ win0_6.index t (1 : Fin 3) = 0 ∧ win0_6.index t (2 : Fin 3) = 0 :=
  (by decide +kernel : ∀ t : Fin grid0.N, _)
theorem idx_p7 : ∀ t : Fin cfg0.N, win0_7.index t (0 : Fin 3) = win0_11.index t (0 : Fin 3)
    ∧ win0_7.index t (1 : Fin 3) = 0 ∧ win0_7.index t (2 : Fin 3) = 0 :=
  (by decide +kernel : ∀ t : Fin grid0.N, _)
theorem idx_p8 : ∀ t : Fin cfg0.N, win0_8.index t (0 : Fin 3) = win0_11.index t (0 : Fin 3)
    ∧ win0_8.index t (1 : Fin 3) = 0 ∧ win0_8.index t (2 : Fin 3) = 0 :=
  (by decide +kernel : ∀ t : Fin grid0.N, _)
theorem idx_p9 : ∀ t : Fin cfg0.N, win0_9.index t (0 : Fin 3) = win0_11.index t (0 : Fin 3)
    ∧ win0_9.index t (1 : Fin 3) = 0 ∧ win0_9.index t (2 : Fin 3) = 0 :=
  (by decide +kernel : ∀ t : Fin grid0.N, _)
theorem idx_p10 : ∀ t : Fin cfg0.N, win0_10.index t (0 : Fin 3) = win0_11.index t (0 : Fin 3)
    ∧ win0_10.index t (1 : Fin 3) = 0 ∧ win0_10.index t (2 : Fin 3) = 0 :=
  (by decide +kernel : ∀ t : Fin grid0.N, _)

/-- Every (sample, half) is some point's output block. -/
theorem idx_onto : ∀ (q0 : Fin 32) (q1 : Fin 2), ∃ t : Fin cfg0.N, win0_11.index t = ![q0.val, q1.val, 0] :=
  (by decide +kernel : ∀ (q0 : Fin 32) (q1 : Fin 2), ∃ t : Fin grid0.N, win0_11.index t = ![q0.val, q1.val, 0])

/-- The sample a point works on, and the array row of its tile's row r. -/
def bOf (t : Fin cfg0.N) : Fin 32 := ⟨win0_11.index t (0 : Fin 3), (idx_out t).1⟩
def nOf (t : Fin cfg0.N) (r : Fin 8192) : Fin 16384 :=
  ⟨win0_11.index t (1 : Fin 3) * 8192 + r.val, by have := (idx_out t).2.1; have := r.isLt; omega⟩

/-! ## The blocks the body loads -/

/-- Row r of the coordinate window's block is the array's row 8192·h + r of the point's sample. -/
theorem blk_0 (c : Dev nD) (t : Fin cfg0.N) (r : Fin 8192) :
    (fun (k : Fin 2) => (iblk m c 0 t : S1x8192x2.Idx → EReal) (ix3 (0 : Fin 1) r k)) = Ref.row (X0 m c) (bOf t) (nOf t r) := by
  obtain ⟨e0, e1, e2⟩ := idx_x t
  funext k
  show (V m c main_v25 : S32x16384x2.Idx → EReal) (((cfg0.win 0).blk t).view.emb (ix3 (0 : Fin 1) r k))
    = X0 m c (ix3 (bOf t) (nOf t r) k)
  rw [coords_eq]
  refine congrArg (X0 m c) (funext fun a => Fin.ext ?_)
  match a with
  | ⟨0, _⟩ => show win0_0.index t (0 : Fin 3) * 1 + 1 * 0 = win0_11.index t (0 : Fin 3); omega
  | ⟨1, _⟩ => show win0_0.index t (1 : Fin 3) * 8192 + 1 * r.val = win0_11.index t (1 : Fin 3) * 8192 + r.val; omega
  | ⟨2, _⟩ => show win0_0.index t (2 : Fin 3) * 2 + 1 * k.val = k.val; omega

/-- Window 1's block at any point of sample b's two tiles is sample b's weights of that layer. -/
theorem blk_1 (c : Dev nD) (t : Fin cfg0.N) :
    (fun (j : Fin 256) (k : Fin 2) => (iblk m c 1 t : S1x256x2.Idx → EReal) (ix3 (0 : Fin 1) j k)) = Ref.w0 (X1 m c) (bOf t) := by
  obtain ⟨e0, e1, e2⟩ := idx_p1 t
  funext j k
  show (V m c main_v2 : S32x256x2.Idx → EReal) (((cfg0.win 1).blk t).view.emb (ix3 (0 : Fin 1) j k))
    = Cert.ReferenceIdeal.Read.val_main_v1 (F := Ideal) (X1 m c) (ix3 (bOf t) j k)
  rw [wts0_eq]
  refine congrArg (Cert.ReferenceIdeal.Read.val_main_v1 (F := Ideal) (X1 m c)) (funext fun a => Fin.ext ?_)
  match a with
  | ⟨0, _⟩ => show win0_1.index t (0 : Fin 3) * 1 + 1 * 0 = win0_11.index t (0 : Fin 3); omega
  | ⟨1, _⟩ => show win0_1.index t (1 : Fin 3) * 256 + 1 * j.val = j.val; omega
  | ⟨2, _⟩ => show win0_1.index t (2 : Fin 3) * 2 + 1 * k.val = k.val; omega

/-- Window 3's block at any point of sample b's two tiles is sample b's weights of that layer. -/
theorem blk_3 (c : Dev nD) (t : Fin cfg0.N) :
    (fun (j : Fin 256) (k : Fin 256) => (iblk m c 3 t : S1x256x256.Idx → EReal) (ix3 (0 : Fin 1) j k)) = Ref.w1 (X1 m c) (bOf t) := by
  obtain ⟨e0, e1, e2⟩ := idx_p3 t
  funext j k
  show (V m c main_v7 : S32x256x256.Idx → EReal) (((cfg0.win 3).blk t).view.emb (ix3 (0 : Fin 1) j k))
    = Cert.ReferenceIdeal.Read.val_main_v12 (F := Ideal) (X1 m c) (ix3 (bOf t) j k)
  rw [wts1_eq]
  refine congrArg (Cert.ReferenceIdeal.Read.val_main_v12 (F := Ideal) (X1 m c)) (funext fun a => Fin.ext ?_)
  match a with
  | ⟨0, _⟩ => show win0_3.index t (0 : Fin 3) * 1 + 1 * 0 = win0_11.index t (0 : Fin 3); omega
  | ⟨1, _⟩ => show win0_3.index t (1 : Fin 3) * 256 + 1 * j.val = j.val; omega
  | ⟨2, _⟩ => show win0_3.index t (2 : Fin 3) * 256 + 1 * k.val = k.val; omega

/-- Window 5's block at any point of sample b's two tiles is sample b's weights of that layer. -/
theorem blk_5 (c : Dev nD) (t : Fin cfg0.N) :
    (fun (j : Fin 256) (k : Fin 256) => (iblk m c 5 t : S1x256x256.Idx → EReal) (ix3 (0 : Fin 1) j k)) = Ref.w2 (X1 m c) (bOf t) := by
  obtain ⟨e0, e1, e2⟩ := idx_p5 t
  funext j k
  show (V m c main_v12 : S32x256x256.Idx → EReal) (((cfg0.win 5).blk t).view.emb (ix3 (0 : Fin 1) j k))
    = Cert.ReferenceIdeal.Read.val_main_v23 (F := Ideal) (X1 m c) (ix3 (bOf t) j k)
  rw [wts2_eq]
  refine congrArg (Cert.ReferenceIdeal.Read.val_main_v23 (F := Ideal) (X1 m c)) (funext fun a => Fin.ext ?_)
  match a with
  | ⟨0, _⟩ => show win0_5.index t (0 : Fin 3) * 1 + 1 * 0 = win0_11.index t (0 : Fin 3); omega
  | ⟨1, _⟩ => show win0_5.index t (1 : Fin 3) * 256 + 1 * j.val = j.val; omega
  | ⟨2, _⟩ => show win0_5.index t (2 : Fin 3) * 256 + 1 * k.val = k.val; omega

/-- Window 7's block at any point of sample b's two tiles is sample b's weights of that layer. -/
theorem blk_7 (c : Dev nD) (t : Fin cfg0.N) :
    (fun (j : Fin 256) (k : Fin 256) => (iblk m c 7 t : S1x256x256.Idx → EReal) (ix3 (0 : Fin 1) j k)) = Ref.w3 (X1 m c) (bOf t) := by
  obtain ⟨e0, e1, e2⟩ := idx_p7 t
  funext j k
  show (V m c main_v17 : S32x256x256.Idx → EReal) (((cfg0.win 7).blk t).view.emb (ix3 (0 : Fin 1) j k))
    = Cert.ReferenceIdeal.Read.val_main_v34 (F := Ideal) (X1 m c) (ix3 (bOf t) j k)
  rw [wts3_eq]
  refine congrArg (Cert.ReferenceIdeal.Read.val_main_v34 (F := Ideal) (X1 m c)) (funext fun a => Fin.ext ?_)
  match a with
  | ⟨0, _⟩ => show win0_7.index t (0 : Fin 3) * 1 + 1 * 0 = win0_11.index t (0 : Fin 3); omega
  | ⟨1, _⟩ => show win0_7.index t (1 : Fin 3) * 256 + 1 * j.val = j.val; omega
  | ⟨2, _⟩ => show win0_7.index t (2 : Fin 3) * 256 + 1 * k.val = k.val; omega

/-- Window 9's block at any point of sample b's two tiles is sample b's weights of that layer. -/
theorem blk_9 (c : Dev nD) (t : Fin cfg0.N) :
    (fun (j : Fin 3) (k : Fin 256) => (iblk m c 9 t : S1x3x256.Idx → EReal) (ix3 (0 : Fin 1) j k)) = Ref.w4 (X1 m c) (bOf t) := by
  obtain ⟨e0, e1, e2⟩ := idx_p9 t
  funext j k
  show (V m c main_v22 : S32x3x256.Idx → EReal) (((cfg0.win 9).blk t).view.emb (ix3 (0 : Fin 1) j k))
    = Cert.ReferenceIdeal.Read.val_main_v45 (F := Ideal) (X1 m c) (ix3 (bOf t) j k)
  rw [wts4_eq]
  refine congrArg (Cert.ReferenceIdeal.Read.val_main_v45 (F := Ideal) (X1 m c)) (funext fun a => Fin.ext ?_)
  match a with
  | ⟨0, _⟩ => show win0_9.index t (0 : Fin 3) * 1 + 1 * 0 = win0_11.index t (0 : Fin 3); omega
  | ⟨1, _⟩ => show win0_9.index t (1 : Fin 3) * 3 + 1 * j.val = j.val; omega
  | ⟨2, _⟩ => show win0_9.index t (2 : Fin 3) * 256 + 1 * k.val = k.val; omega

/-- Window 2's block at any point of sample b's two tiles is sample b's bias of that layer. -/
theorem blk_2 (c : Dev nD) (t : Fin cfg0.N) :
    (fun (j : Fin 256) => (iblk m c 2 t : S1x1x256.Idx → EReal) (ix3 (0 : Fin 1) (0 : Fin 1) j)) = Ref.b0 (X2 m c) (bOf t) := by
  obtain ⟨e0, e1, e2⟩ := idx_p2 t
  funext j
  show (V m c main_v4 : S32x1x256.Idx → EReal) (((cfg0.win 2).blk t).view.emb (ix3 (0 : Fin 1) (0 : Fin 1) j))
    = Cert.ReferenceIdeal.Read.val_main_v2 (F := Ideal) (X2 m c) (ix2 (bOf t) j)
  rw [← bias0_apply m c (bOf t) j]
  refine congrArg (V m c main_v4 : S32x1x256.Idx → EReal) (funext fun a => Fin.ext ?_)
  match a with
  | ⟨0, _⟩ => show win0_2.index t (0 : Fin 3) * 1 + 1 * 0 = win0_11.index t (0 : Fin 3); omega
  | ⟨1, _⟩ => show win0_2.index t (1 : Fin 3) * 1 + 1 * 0 = 0; omega
  | ⟨2, _⟩ => show win0_2.index t (2 : Fin 3) * 256 + 1 * j.val = j.val; omega

/-- Window 4's block at any point of sample b's two tiles is sample b's bias of that layer. -/
theorem blk_4 (c : Dev nD) (t : Fin cfg0.N) :
    (fun (j : Fin 256) => (iblk m c 4 t : S1x1x256.Idx → EReal) (ix3 (0 : Fin 1) (0 : Fin 1) j)) = Ref.b1 (X2 m c) (bOf t) := by
  obtain ⟨e0, e1, e2⟩ := idx_p4 t
  funext j
  show (V m c main_v9 : S32x1x256.Idx → EReal) (((cfg0.win 4).blk t).view.emb (ix3 (0 : Fin 1) (0 : Fin 1) j))
    = Cert.ReferenceIdeal.Read.val_main_v13 (F := Ideal) (X2 m c) (ix2 (bOf t) j)
  rw [← bias1_apply m c (bOf t) j]
  refine congrArg (V m c main_v9 : S32x1x256.Idx → EReal) (funext fun a => Fin.ext ?_)
  match a with
  | ⟨0, _⟩ => show win0_4.index t (0 : Fin 3) * 1 + 1 * 0 = win0_11.index t (0 : Fin 3); omega
  | ⟨1, _⟩ => show win0_4.index t (1 : Fin 3) * 1 + 1 * 0 = 0; omega
  | ⟨2, _⟩ => show win0_4.index t (2 : Fin 3) * 256 + 1 * j.val = j.val; omega

/-- Window 6's block at any point of sample b's two tiles is sample b's bias of that layer. -/
theorem blk_6 (c : Dev nD) (t : Fin cfg0.N) :
    (fun (j : Fin 256) => (iblk m c 6 t : S1x1x256.Idx → EReal) (ix3 (0 : Fin 1) (0 : Fin 1) j)) = Ref.b2 (X2 m c) (bOf t) := by
  obtain ⟨e0, e1, e2⟩ := idx_p6 t
  funext j
  show (V m c main_v14 : S32x1x256.Idx → EReal) (((cfg0.win 6).blk t).view.emb (ix3 (0 : Fin 1) (0 : Fin 1) j))
    = Cert.ReferenceIdeal.Read.val_main_v24 (F := Ideal) (X2 m c) (ix2 (bOf t) j)
  rw [← bias2_apply m c (bOf t) j]
  refine congrArg (V m c main_v14 : S32x1x256.Idx → EReal) (funext fun a => Fin.ext ?_)
  match a with
  | ⟨0, _⟩ => show win0_6.index t (0 : Fin 3) * 1 + 1 * 0 = win0_11.index t (0 : Fin 3); omega
  | ⟨1, _⟩ => show win0_6.index t (1 : Fin 3) * 1 + 1 * 0 = 0; omega
  | ⟨2, _⟩ => show win0_6.index t (2 : Fin 3) * 256 + 1 * j.val = j.val; omega

/-- Window 8's block at any point of sample b's two tiles is sample b's bias of that layer. -/
theorem blk_8 (c : Dev nD) (t : Fin cfg0.N) :
    (fun (j : Fin 256) => (iblk m c 8 t : S1x1x256.Idx → EReal) (ix3 (0 : Fin 1) (0 : Fin 1) j)) = Ref.b3 (X2 m c) (bOf t) := by
  obtain ⟨e0, e1, e2⟩ := idx_p8 t
  funext j
  show (V m c main_v19 : S32x1x256.Idx → EReal) (((cfg0.win 8).blk t).view.emb (ix3 (0 : Fin 1) (0 : Fin 1) j))
    = Cert.ReferenceIdeal.Read.val_main_v35 (F := Ideal) (X2 m c) (ix2 (bOf t) j)
  rw [← bias3_apply m c (bOf t) j]
  refine congrArg (V m c main_v19 : S32x1x256.Idx → EReal) (funext fun a => Fin.ext ?_)
  match a with
  | ⟨0, _⟩ => show win0_8.index t (0 : Fin 3) * 1 + 1 * 0 = win0_11.index t (0 : Fin 3); omega
  | ⟨1, _⟩ => show win0_8.index t (1 : Fin 3) * 1 + 1 * 0 = 0; omega
  | ⟨2, _⟩ => show win0_8.index t (2 : Fin 3) * 256 + 1 * j.val = j.val; omega

/-- Window 10's block at any point of sample b's two tiles is sample b's bias of that layer. -/
theorem blk_10 (c : Dev nD) (t : Fin cfg0.N) :
    (fun (j : Fin 3) => (iblk m c 10 t : S1x1x3.Idx → EReal) (ix3 (0 : Fin 1) (0 : Fin 1) j)) = Ref.b4 (X2 m c) (bOf t) := by
  obtain ⟨e0, e1, e2⟩ := idx_p10 t
  funext j
  show (V m c main_v24 : S32x1x3.Idx → EReal) (((cfg0.win 10).blk t).view.emb (ix3 (0 : Fin 1) (0 : Fin 1) j))
    = Cert.ReferenceIdeal.Read.val_main_v46 (F := Ideal) (X2 m c) (ix2 (bOf t) j)
  rw [← bias4_apply m c (bOf t) j]
  refine congrArg (V m c main_v24 : S32x1x3.Idx → EReal) (funext fun a => Fin.ext ?_)
  match a with
  | ⟨0, _⟩ => show win0_10.index t (0 : Fin 3) * 1 + 1 * 0 = win0_11.index t (0 : Fin 3); omega
  | ⟨1, _⟩ => show win0_10.index t (1 : Fin 3) * 1 + 1 * 0 = 0; omega
  | ⟨2, _⟩ => show win0_10.index t (2 : Fin 3) * 3 + 1 * j.val = j.val; omega

/-- Where the output window's block puts its entry (0, r, j). -/
theorem emb_out (t : Fin cfg0.N) (r : Fin 8192) (j : Fin 3) :
    ((cfg0.win 11).blk t).view.emb (ix3 (0 : Fin 1) r j) = (ix3 (bOf t) (nOf t r) j : S32x16384x3.Idx) := by
  obtain ⟨h0, h1, h2⟩ := idx_out t
  funext a
  apply Fin.ext
  match a with
  | ⟨0, _⟩ => show win0_11.index t (0 : Fin 3) * 1 + 1 * 0 = win0_11.index t (0 : Fin 3); omega
  | ⟨1, _⟩ => show win0_11.index t (1 : Fin 3) * 8192 + 1 * r.val = win0_11.index t (1 : Fin 3) * 8192 + r.val; omega
  | ⟨2, _⟩ => show win0_11.index t (2 : Fin 3) * 3 + 1 * j.val = j.val; omega

/-! ## What a point writes back -/

/-- The network depends on its eleven arguments only. -/
theorem net_congr {h0 h0' : Fin 2 → EReal} {w0 w0' : Fin 256 → Fin 2 → EReal} {b0 b0' : Fin 256 → EReal}
    {w1 w1' : Fin 256 → Fin 256 → EReal} {b1 b1' : Fin 256 → EReal} {w2 w2' : Fin 256 → Fin 256 → EReal} {b2 b2' : Fin 256 → EReal}
    {w3 w3' : Fin 256 → Fin 256 → EReal} {b3 b3' : Fin 256 → EReal} {w4 w4' : Fin 3 → Fin 256 → EReal} {b4 b4' : Fin 3 → EReal}
    (e0 : h0 = h0') (f0 : w0 = w0') (g0 : b0 = b0') (f1 : w1 = w1') (g1 : b1 = b1') (f2 : w2 = w2') (g2 : b2 = b2')
    (f3 : w3 = w3') (g3 : b3 = b3') (f4 : w4 = w4') (g4 : b4 = b4') (j : Fin 3) :
    net h0 w0 b0 w1 b1 w2 b2 w3 b3 w4 b4 j = net h0' w0' b0' w1' b1' w2' b2' w3' b3' w4' b4' j := by
  subst e0 f0 g0 f1 g1 f2 g2 f3 g3 f4 g4; rfl

/-- WHAT POINT t WRITES BACK is block t of the result array `G` of the arguments. -/
theorem flushed_eq (c : Dev nD) (t : Fin cfg0.N) :
    (dats m 0 c).flushed 11 t = ((cfg0.win 11).blk t).view.read (Elt Ideal) (G (X0 m c) (X1 m c) (X2 m c)) := by
  rw [Cert.KernelIdeal.Value.flushed11]
  unfold out0_11
  rw [View.canon_unit_zero hz]
  simp only [View.ld_unit_zero (S := S1x8192x2) hz, View.ld_unit_zero (S := S1x256x2) hz, View.ld_unit_zero (S := S1x1x256) hz,
    View.ld_unit_zero (S := S1x256x256) hz, View.ld_unit_zero (S := S1x3x256) hz, View.ld_unit_zero (S := S1x1x3) hz]
  funext y
  obtain ⟨u, r, j, rfl⟩ : ∃ (u : Fin 1) (r : Fin 8192) (j : Fin 3), y = ix3 u r j := ⟨y 0, y 1, y 2, eq_ix3 y⟩
  obtain rfl : u = 0 := Subsingleton.elim _ _
  show k0_pay1 (F := Ideal) (k0_pay2 (F := Ideal) (iblk m c 0 t) (iblk m c 1 t) (iblk m c 2 t) (iblk m c 3 t) (iblk m c 4 t)
        (iblk m c 5 t) (iblk m c 6 t)) (Scalar.ofBits .f32 0x41F00000#32) (iblk m c 7 t) (iblk m c 8 t) (iblk m c 9 t) (iblk m c 10 t)
        (ix3 (0 : Fin 1) r j)
      = G (X0 m c) (X1 m c) (X2 m c) (((cfg0.win 11).blk t).view.emb (ix3 (0 : Fin 1) r j))
  rw [emb_out t r j, G_ix3]
  refine (pay_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) r j).trans ?_
  exact net_congr (blk_0 m c t r) (blk_1 m c t) (blk_2 m c t) (blk_3 m c t) (blk_4 m c t) (blk_5 m c t) (blk_6 m c t)
    (blk_7 m c t) (blk_8 m c t) (blk_9 m c t) (blk_10 m c t) j

/-! ## The blocks tile the result array -/

/-- An index of the array is in point t's block iff each coordinate is in the block's range on its axis. -/
theorem mem_blk (t : Fin cfg0.N) (i : S32x16384x3.Idx) :
    i ∈ ((cfg0.win 11).blk t).view.set ↔ ∀ a : Fin 3, win0_11.index t a * S1x8192x3.size a ≤ (i a).val
      ∧ (i a).val < win0_11.index t a * S1x8192x3.size a + S1x8192x3.size a := by
  show i ∈ ((View.whole main_v26).slice (win0_11.rect t)).set ↔ _
  rw [View.set_slice_whole, Rect.mem_set_unit]
  exact Iff.rfl

/-- Entry (b, n, j) lies in the block of the point for sample b and half n / 8192. -/
theorem cover (i : S32x16384x3.Idx) : ∃ t : Fin cfg0.N, (cfg0.win 11).flush t = true ∧ i ∈ ((cfg0.win 11).blk t).view.set := by
  have hi0 : (i 0).val < 32 := (i 0).isLt
  have hi1 : (i 1).val < 16384 := (i 1).isLt
  have hi2 : (i 2).val < 3 := (i 2).isLt
  obtain ⟨t, ht⟩ := idx_onto ⟨(i 0).val, hi0⟩ ⟨(i 1).val / 8192, by omega⟩
  have q0 : win0_11.index t (0 : Fin 3) = (i 0).val := congrFun ht 0
  have q1 : win0_11.index t (1 : Fin 3) = (i 1).val / 8192 := congrFun ht 1
  have q2 : win0_11.index t (2 : Fin 3) = 0 := congrFun ht 2
  refine ⟨t, flush0_11 t, ?_⟩
  rw [mem_blk]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 8192 ≤ (i 1).val ∧ (i 1).val < win0_11.index t (1 : Fin 3) * 8192 + 8192; omega
  | ⟨2, _⟩ => show win0_11.index t (2 : Fin 3) * 3 ≤ (i 2).val ∧ (i 2).val < win0_11.index t (2 : Fin 3) * 3 + 3; omega

/-- THE RESULT ARRAY after the run is `G` of the arguments. -/
theorem final (c : Dev nD) : (dats m 0 c).arrAt 11 cfg0.N = G (X0 m c) (X1 m c) (X2 m c) :=
  (dats m 0 c).arrAt_eq_of_cover 11 (G (X0 m c) (X1 m c) (X2 m c)) (fun t _ => flushed_eq m c t) cover

/-- The kernel program's run: the result array at `G` of the arguments, the arguments unchanged. -/
theorem run : θ_run defs (onTc (τ := τ) (main (F := Ideal))) ⟨m, fun _ => 0, ρ⟩ fun r => ∀ c : Dev nD,
      r.2.mem ((c : Thread nD τ).loc main_v26) = G (X0 m c) (X1 m c) (X2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Siren.Kernel

end
-- ==== Proof.lean ====
/-
  A per-sample SIREN network, 32 samples of 16384 coordinate rows each: four sine layers x ↦ sin (30 · (x · Wᵀ + β))
  of widths 2 → 256 → 256 → 256 → 256 and a last linear layer 256 → 3, every sample with its own weights and biases cut
  out of two flat arrays. The kernel works tile by tile (8192 rows of one sample per grid point, the weights in the
  bf16 format, which on the extended reals is the same number), the reference on the whole batch with transposed
  weights and batched products. On the extended reals both end with the same array: entry (b, n, j) is sample b's
  network at coordinate row n, output unit j, every sum taken over the contracted coordinate in the same order, so
  the equality needs no finiteness and the precondition is never opened.

  The kernel programs' frames are the generated ones; the reference's frame is its generated run with the result
  dropped; the idealization rewrote nothing, so `preserves` is trivial; `algebraic` sets the kernel's run, read as
  the array `Cert.Siren.G` of the arguments (Proof/KernelValue.lean), beside the reference's run, read as the same
  array (Proof/Spec.lean), from memories that agree on the arguments.
-/
import proofs.«172699_j15745350108029_2_alg».proof.Defs
import proofs.«172699_j15745350108029_2_alg».proof.Proof.Gen.Kernel
import proofs.«172699_j15745350108029_2_alg».proof.Proof.Gen.Kernel.Skeleton
import proofs.«172699_j15745350108029_2_alg».proof.Proof.Gen.Kernel.Launch
import proofs.«172699_j15745350108029_2_alg».proof.Proof.Gen.Kernel.Points
import proofs.«172699_j15745350108029_2_alg».proof.Proof.Gen.Kernel.Frame
import proofs.«172699_j15745350108029_2_alg».proof.Proof.Gen.KernelIdeal
import proofs.«172699_j15745350108029_2_alg».proof.Proof.Gen.KernelIdeal.Skeleton
import proofs.«172699_j15745350108029_2_alg».proof.Proof.Gen.KernelIdeal.Launch
import proofs.«172699_j15745350108029_2_alg».proof.Proof.Gen.KernelIdeal.Points
import proofs.«172699_j15745350108029_2_alg».proof.Proof.Gen.KernelIdeal.Frame
import proofs.«172699_j15745350108029_2_alg».proof.Proof.Gen.ReferenceIdeal
import proofs.«172699_j15745350108029_2_alg».proof.Proof.Gen.Pre_finite_inputs
import proofs.«172699_j15745350108029_2_alg».proof.Proof.Gen.KernelIdeal.Value
import proofs.«172699_j15745350108029_2_alg».proof.Proof.Gen.ReferenceIdeal.Run
import proofs.«172699_j15745350108029_2_alg».proof.Proof.Gen.ReferenceIdeal.Read
import proofs.«172699_j15745350108029_2_alg».proof.Proof.Spec
import proofs.«172699_j15745350108029_2_alg».proof.Proof.KernelValue
import Idealize.ShloMosaic.Adequacy
import Idealize.ShloMosaic.Init

noncomputable section

namespace Cert.Proof

open Idealize.ShloMosaic Idealize.SL.Sem

/-- The reference program runs and leaves its arguments as they were: its run with the result dropped. -/
theorem frame_ref : Cert.frame_ReferenceIdeal := fun m ρ _ =>
  (θ_run Cert.ReferenceIdeal.defs _ _).mono (fun _ h c => (h c).2.2.2.2.2) (Cert.ReferenceIdeal.Value.run (F := Ideal) m ρ)

/-- Both idealized programs end with the array `Cert.Siren.G` of the (agreeing) arguments. -/
theorem algebraic : Cert.algebraic_KernelIdeal_ReferenceIdeal := by
  intro m ρ m' ρ' _ hagree
  refine ⟨fun c => Cert.Siren.G (Cert.Siren.Kernel.X0 m c) (Cert.Siren.Kernel.X1 m c) (Cert.Siren.Kernel.X2 m c),
    fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3), ?_, ?_⟩
  · exact (θ_run Cert.KernelIdeal.defs _ _).mono (fun r h c => ⟨(h c).1, (h c).2.1, (h c).2.2.1, (h c).2.2.2.1, (h c).2.2.2.2,
      (h c).2.1, (h c).2.2.1, (h c).2.2.2.1, (h c).2.2.2.2⟩) (Cert.Siren.Kernel.run m ρ)
  · refine (θ_run Cert.ReferenceIdeal.defs _ _).mono (fun r h c => ?_) (Cert.ReferenceIdeal.Value.run (F := Ideal) m' ρ')
    obtain ⟨h0, h1, h2, h3, h4, h5, h6, h7, h8⟩ := h c
    obtain ⟨a0, a1, a2, a3⟩ := hagree c
    refine ⟨?_, h1.trans a0, h2.trans a1, h3.trans a2, h4.trans a3, h5, h6, h7, h8⟩
    rw [h0, Cert.ReferenceIdeal.Read.val_main_v51_eq, Cert.Siren.ref_eq, a0, a1, a2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
